-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S256x1024 : Shape := ⟨2, ![256, 1024]⟩
abbrev S1024x256 : Shape := ⟨2, ![1024, 256]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024x256 : S_.BroadcastsInDim S1024x256 (![] : Fin 0 → Fin S1024x256.rank)
  reducesTo_S1024x256_S_d0_1 : S1024x256.ReducesTo [0, 1] S_

variable [Facts]

def fn_part1 {F : FTy → Type} [FloatOps F] (main_arg4 : FVec F S1024x256 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S1024x256 .f32 := Host.absf main_arg4
  let main_cst_6 : FVec F S_ .f32 := constant S_ .f32 0x7F800000#32
  let main_v20 : FVec F S1024x256 .f32 := broadcastInDim S1024x256 ![] bcast_S_S1024x256 main_cst_6
  let main_v21 : IVec S1024x256 1 := cmpf .olt main_v19 main_v20
  let main_c_7 : IVec S_ 1 := constantI S_ 1 1#1
  let main_v22 : IVec S_ 1 := (fun x v => Host.reduce IntOp.andi x v reducesTo_S1024x256_S_d0_1 h_S_) main_v21 main_c_7
  let main_v23 : IVec S_ 1 := andi main_v18 main_v22
  main_v23

def fn {F : FTy → Type} [FloatOps F] (main_arg0 : FVec F S4096x1024 .f32) (main_arg1 : FVec F S4096x1024 .f32) (main_arg2 : FVec F S4096x1024 .f32) (main_arg3 : FVec F S256x1024 .f32) (main_arg4 : FVec F S1024x256 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_v13 main_v16
-- ==== Kernel.lean ====
abbrev S4096x1024 : Shape := ⟨2, ![4096, 1024]⟩
abbrev S256x1024 : Shape := ⟨2, ![256, 1024]⟩
abbrev S1024x256 : Shape := ⟨2, ![1024, 256]⟩
abbrev S512x1024 : Shape := ⟨2, ![512, 1024]⟩
abbrev S512x256 : Shape := ⟨2, ![512, 256]⟩

abbrev nBuf : Space → Nat
  | .hbm => 11
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S256x1024, .f32⟩
  | .hbm, ⟨4, _⟩ => ⟨S1024x256, .f32⟩
  | .hbm, ⟨5, _⟩ => ⟨S1024x256, .f32⟩
  | .hbm, ⟨6, _⟩ => ⟨S1024x256, .bf16⟩
  | .hbm, ⟨7, _⟩ => ⟨S256x1024, .f32⟩
  | .hbm, ⟨8, _⟩ => ⟨S256x1024, .bf16⟩
  | .hbm, ⟨9, _⟩ => ⟨S4096x1024, .f32⟩
  | .hbm, ⟨10, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x256, .bf16⟩
  | .local _ .vmem, ⟨7, _⟩ => ⟨S256x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S256x1024_S1024x256_1_0 : S256x1024.Transposes [1, 0] S1024x256
  bitsLt_bf16_f32 : FTy.bits .bf16 < FTy.bits .f32
  transposes_S1024x256_S256x1024_1_0 : S1024x256.Transposes [1, 0] S256x1024
  inb_S512x1024_S512x1024_0_0 : ∀ a, (![0, 0] : Fin 2 → Nat) a + S512x1024.size a ≤ S512x1024.size a
  h_S512x1024 : 0 < S512x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  dot_S512x1024_S1024x256_S512x256_1_0_0_1_n_n_wf : DotDims.WF S512x1024 S1024x256 S512x256 [1] [0] [0] [1] [] []
  dot_S512x256_S256x1024_S512x1024_1_0_0_1_n_n_wf : DotDims.WF S512x256 S256x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x1024.size a
  hwx0_1 : ∀ i : grid0.Coords, EltTy.bits .f32 = 32 ∨ (Rect.block (s := S4096x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .f32 = 32 ∨ (Rect.block (s := S4096x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x256.size a ≤ S1024x256.size a
  hwx0_3 : ∀ i : grid0.Coords, EltTy.bits .bf16 = 32 ∨ (Rect.block (s := S1024x256) S1024x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S256x1024.size a
  hwx0_4 : ∀ i : grid0.Coords, EltTy.bits .bf16 = 32 ∨ (Rect.block (s := S256x1024) S256x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S4096x1024.size a
  hwx0_5 : ∀ i : grid0.Coords, EltTy.bits .f32 = 32 ∨ (Rect.block (s := S4096x1024) S512x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S4096x1024.size a
  hwx0_6 : ∀ i : grid0.Coords, EltTy.bits .f32 = 32 ∨ (Rect.block (s := S4096x1024) S512x1024.size (cc0_transform_6 i) (hinb0_6 i)).WholeWords (EltTy.packing .f32)

variable [Facts₀]

def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x1024_S512x1024_1_0_0_1_n_n : DotDims S512x256 S256x1024 S512x1024 where
  lhsContracting := [1]
  rhsContracting := [0]
  lhsNonContracting := [0]
  rhsNonContracting := [1]
  lhsBatch := []
  rhsBatch := []
  wf := dot_S512x256_S256x1024_S512x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4_0) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_1) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S256x1024 : Shape := ⟨2, ![256, 1024]⟩
abbrev S1024x256 : Shape := ⟨2, ![1024, 256]⟩
abbrev S_ : Shape := ⟨0, ![]⟩
abbrev S4096x256 : Shape := ⟨2, ![4096, 256]⟩

abbrev nBuf : Space → Nat
  | .hbm => 48
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S256x1024, .f32⟩
  | .hbm, ⟨4, _⟩ => ⟨S1024x256, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S4096x256, .f32⟩
  | .hbm, ⟨10, _⟩ => ⟨S4096x256, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x256, .f32⟩
  | .hbm, ⟨23, _⟩ => ⟨S4096x256, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x256, .f32⟩
  | .hbm, ⟨36, _⟩ => ⟨S4096x256, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096x1024, .f32⟩
  | .hbm, ⟨46, _⟩ => ⟨S4096x1024, .f32⟩
  | .hbm, ⟨47, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  bcast_S_S4096x1024 : S_.BroadcastsInDim S4096x1024 (![] : Fin 0 → Fin S4096x1024.rank)
  dot_S4096x1024_S256x1024_S4096x256_1_1_0_0_n_n_wf : DotDims.WF S4096x1024 S256x1024 S4096x256 [1] [1] [0] [0] [] []
  dot_S4096x256_S1024x256_S4096x1024_1_1_0_0_n_n_wf : DotDims.WF S4096x256 S1024x256 S4096x1024 [1] [1] [0] [0] [] []

variable [Facts₀]

def dot_S4096x1024_S256x1024_S4096x256_1_1_0_0_n_n : DotDims S4096x1024 S256x1024 S4096x256 where
  lhsContracting := [1]
  rhsContracting := [1]
  lhsNonContracting := [0]
  rhsNonContracting := [0]
  lhsBatch := []
  rhsBatch := []
  wf := dot_S4096x1024_S256x1024_S4096x256_1_1_0_0_n_n_wf
def dot_S4096x256_S1024x256_S4096x1024_1_1_0_0_n_n : DotDims S4096x256 S1024x256 S4096x1024 where
  lhsContracting := [1]
  rhsContracting := [1]
  lhsNonContracting := [0]
  rhsNonContracting := [0]
  lhsBatch := []
  rhsBatch := []
  wf := dot_S4096x256_S1024x256_S4096x1024_1_1_0_0_n_n_wf

class Facts : Prop extends Facts₀ where

variable [Facts]
-- ==== Proof.StepSpec.lean ====
/-
  One fourth-order symplectic step (three velocity kicks interleaved with four position drifts) of a batch of
  particles under a low-rank quadratic force, on the extended reals, one particle (one row of 1024 coordinates) at a time.

  The force on a row with velocity v is  f − Γ(v),  where  Γ(v)_q = Σ_r (Σ_k v_k · U_{r,k})² · W_{q,r}  (U is 256 × 1024,
  W is 1024 × 256).  A kick with step a sends v to  v + a · (f − Γ(v));  the three kicks use the steps d₁, d₂, d₃ and
  the position ends at  x + c₁·v + c₂·v₁ + c₃·v₂ + c₄·v₃  (summed in that order), the vᵢ being the velocities after the
  kicks.  The seven steps are four f32 words, kept as their words: the same word on both sides is never evaluated.

  Every row's result depends on that row of x, v, f only, and on all of U and W: this is why a batch may be cut into
  row blocks and each block stepped on its own.

  The one law used between the two programs: a force written  (−Γ) + f  is the force written  f − Γ  (addition on the
  extended reals is commutative, and subtraction is addition of the negative) — no finiteness is needed.
-/
import Idealize.ShloMosaic.PureOps.Ideal
import Idealize.ShloMosaic.Lib.ValueIdx

noncomputable section

namespace Cert.Yoshida

open Idealize.ShloMosaic Idealize.ShloMosaic.ValueIdx

/-- One particle's 1024 coordinates. -/
abbrev Row : Type := Fin 1024 → EReal

/-- The velocity-kick steps d₁ = d₃, d₂ and the position-drift steps c₁ = c₄, c₂ = c₃, as their f32 words. -/
abbrev stepD1 : EReal := Ideal.ofBits .f32 0x3C5D61BD#32
abbrev stepD2 : EReal := Ideal.ofBits .f32 0xBC8B7638#32
abbrev stepC1 : EReal := Ideal.ofBits .f32 0x3BDD61BD#32
abbrev stepC2 : EReal := Ideal.ofBits .f32 0xBAE62ACA#32

/-- The projection h_r = Σ_k v_k · U_{r,k} of a row onto the r-th low-rank direction. -/
def proj (U : Fin 256 → Fin 1024 → EReal) (tv : Row) (r : Fin 256) : EReal := ∑ k : Fin 1024, tv k * U r k

/-- Γ(v)_q = Σ_r h_r² · W_{q,r}. -/
def gamma (U : Fin 256 → Fin 1024 → EReal) (W : Fin 1024 → Fin 256 → EReal) (tv : Row) : Row := fun q =>
  ∑ r : Fin 256, (proj U tv r * proj U tv r) * W q r

/-- A velocity kick of step a under the force f − Γ(v). -/
def kick (a : EReal) (U : Fin 256 → Fin 1024 → EReal) (W : Fin 1024 → Fin 256 → EReal) (f tv : Row) : Row := fun q =>
  tv q + a * (f q - gamma U W tv q)

/-- The same kick with the force written (−Γ(v)) + f. -/
theorem kick_neg_add (a : EReal) (U : Fin 256 → Fin 1024 → EReal) (W : Fin 1024 → Fin 256 → EReal) (f tv : Row) (q : Fin 1024) :
    tv q + a * (-(gamma U W tv q) + f q) = kick a U W f tv q := by
  unfold kick
  rw [add_comm (-(gamma U W tv q)) (f q), ← sub_eq_add_neg]

section
variable (U : Fin 256 → Fin 1024 → EReal) (W : Fin 1024 → Fin 256 → EReal) (f v : Row)

/-- The velocity after the first, second and third kick. -/
def vel1 : Row := kick stepD1 U W f v
def vel2 : Row := kick stepD2 U W f (vel1 U W f v)
def vel3 : Row := kick stepD1 U W f (vel2 U W f v)

/-- The position after the four drifts, summed in the order the programs sum them. -/
def pos (x : Row) : Row := fun q =>
  x q + stepC1 * v q + stepC2 * vel1 U W f v q + stepC2 * vel2 U W f v q + stepC1 * vel3 U W f v q

end

/-! ## From arrays to rows -/

/-- Row b of an n × 1024 array. -/
abbrev rowOf {n : ℕ} (A : (⟨2, ![n, 1024]⟩ : Shape).Idx → EReal) (b : Fin n) : Row := fun k => A (ix2 b k)

/-- The 256 × 1024 factor as a matrix. -/
abbrev matU (Ua : (⟨2, ![256, 1024]⟩ : Shape).Idx → EReal) : Fin 256 → Fin 1024 → EReal := fun r k => Ua (ix2 r k)

/-- The 1024 × 256 factor as a matrix. -/
abbrev matW (Wa : (⟨2, ![1024, 256]⟩ : Shape).Idx → EReal) : Fin 1024 → Fin 256 → EReal := fun q r => Wa (ix2 q r)

section
variable (Ua : (⟨2, ![256, 1024]⟩ : Shape).Idx → EReal) (Wa : (⟨2, ![1024, 256]⟩ : Shape).Idx → EReal)
  (xa va fa : (⟨2, ![4096, 1024]⟩ : Shape).Idx → EReal)

/-- The batch's final velocities: every row stepped on its own. -/
def velOut : (⟨2, ![4096, 1024]⟩ : Shape).Idx → EReal := fun i =>
  vel3 (matU Ua) (matW Wa) (rowOf fa (i 0)) (rowOf va (i 0)) (i 1)

/-- The batch's final positions. -/
def posOut : (⟨2, ![4096, 1024]⟩ : Shape).Idx → EReal := fun i =>
  pos (matU Ua) (matW Wa) (rowOf fa (i 0)) (rowOf va (i 0)) (rowOf xa (i 0)) (i 1)

end

end Cert.Yoshida

end
-- ==== Proof.LibPlainMatmul.lean ====
/-
  A plain matrix product on the extended reals, read at an entry.

  A `tpu.matmul` of an [m, K] operand by a [K, n] operand — axis 1 of the left contracted with axis 0 of the right, no batch
  axis — accumulated into the f32 zero splat, and the host's `dot_general` of the same form, read at (p, q), are the textbook
  entry  Σ_k l(p, k) · r(k, q).  The dimension
  record is taken in literal form (the six axis lists written out over any well-formedness witness), so a printed record of
  that form is an instance by unfolding its name.  The operands' formats are free: at the ideal values every format is the
  extended reals.
-/
import Idealize.ShloMosaic.PureOps.Ideal.Laws
import Idealize.ShloMosaic.Lib.ValueIdx

noncomputable section

namespace Cert.PlainMatmul

open Idealize.ShloMosaic Idealize.ShloMosaic.ValueIdx

/-- The literal record of a plain [m, K] × [K, n] product. -/
abbrev plain {m K n : ℕ}
    (wf : DotDims.WF (⟨2, ![m, K]⟩ : Shape) (⟨2, ![K, n]⟩ : Shape) (⟨2, ![m, n]⟩ : Shape) [1] [0] [0] [1] [] []) :
    DotDims (⟨2, ![m, K]⟩ : Shape) (⟨2, ![K, n]⟩ : Shape) (⟨2, ![m, n]⟩ : Shape) :=
  { lhsContracting := [1], rhsContracting := [0], lhsNonContracting := [0], rhsNonContracting := [1],
    lhsBatch := [], rhsBatch := [], wf := wf }

section
variable {m K n : ℕ}
  (wf : DotDims.WF (⟨2, ![m, K]⟩ : Shape) (⟨2, ![K, n]⟩ : Shape) (⟨2, ![m, n]⟩ : Shape) [1] [0] [0] [1] [] [])
  (j : (⟨2, ![m, n]⟩ : Shape).Idx) (k : (plain wf).contr.Idx)

/-- The left operand's row is the result's row. -/
theorem lhs_row : ((plain wf).lhsIdx j k 0).val = (j 0).val := by
  unfold DotDims.lhsIdx
  rw [dif_neg (show ¬(0 : Fin (⟨2, ![m, K]⟩ : Shape).rank) ∈ (plain wf).lhsBatch from List.not_mem_nil),
    dif_pos (show (0 : Fin (⟨2, ![m, K]⟩ : Shape).rank) ∈ (plain wf).lhsNonContracting from List.mem_singleton.mpr rfl)]
  rfl

/-- The left operand's column is the contracted coordinate. -/
theorem lhs_col : ((plain wf).lhsIdx j k 1).val = (k ⟨0, Nat.one_pos⟩).val :=
  (plain wf).lhsIdx_val_of_single rfl j k

/-- The right operand's row is the contracted coordinate. -/
theorem rhs_row : ((plain wf).rhsIdx j k 0).val = (k ⟨0, Nat.one_pos⟩).val :=
  (plain wf).rhsIdx_val_of_single rfl j k

/-- The right operand's column is the result's column. -/
theorem rhs_col : ((plain wf).rhsIdx j k 1).val = (j 1).val := by
  unfold DotDims.rhsIdx
  rw [dif_neg (show ¬(1 : Fin (⟨2, ![K, n]⟩ : Shape).rank) ∈ (plain wf).rhsBatch from List.not_mem_nil),
    dif_pos (show (1 : Fin (⟨2, ![K, n]⟩ : Shape).rank) ∈ (plain wf).rhsNonContracting from List.mem_singleton.mpr rfl)]
  rfl

end

/-- The sum over the record's contraction index, re-indexed by the contracted coordinate. -/
theorem contr_sum {m K n : ℕ}
    (wf : DotDims.WF (⟨2, ![m, K]⟩ : Shape) (⟨2, ![K, n]⟩ : Shape) (⟨2, ![m, n]⟩ : Shape) [1] [0] [0] [1] [] [])
    (l : (⟨2, ![m, K]⟩ : Shape).Idx → EReal) (r : (⟨2, ![K, n]⟩ : Shape).Idx → EReal) (p : Fin m) (q : Fin n) :
    (∑ k : (plain wf).contr.Idx, l ((plain wf).lhsIdx (ix2 p q) k) * r ((plain wf).rhsIdx (ix2 p q) k))
      = ∑ k : Fin K, l (ix2 p k) * r (ix2 k q) := by
  rw [← Equiv.sum_comp (contrEquiv1 (plain wf) K rfl rfl).symm]
  refine Finset.sum_congr rfl fun k _ => ?_
  have hk := contrEquiv1_symm_val (plain wf) K rfl rfl k
  have el : (plain wf).lhsIdx (ix2 p q) ((contrEquiv1 (plain wf) K rfl rfl).symm k) = ix2 p k :=
    funext fun a => Fin.ext (by
      match a with
      | ⟨0, _⟩ => exact lhs_row wf _ _
      | ⟨1, _⟩ => exact (lhs_col wf _ _).trans hk)
  have er : (plain wf).rhsIdx (ix2 p q) ((contrEquiv1 (plain wf) K rfl rfl).symm k) = ix2 k q :=
    funext fun a => Fin.ext (by
      match a with
      | ⟨0, _⟩ => exact (rhs_row wf _ _).trans hk
      | ⟨1, _⟩ => exact rhs_col wf _ _)
  rw [el, er]

/-- Entry (p, q) of a kernel's product into the zero splat is the sum over the contracted axis of the entries' products. -/
theorem matmul_zero_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision)
    (l : FVec Ideal (⟨2, ![m, K]⟩ : Shape) φ₁) (r : FVec Ideal (⟨2, ![K, n]⟩ : Shape) φ₂) (p : Fin m) (q : Fin n) :
    FloatOps.matmul (plain wf) prec l r (constant (⟨2, ![m, n]⟩ : Shape) .f32 0x00000000#32) (ix2 p q)
      = ∑ k : Fin K, l (ix2 p k) * r (ix2 k q) := by
  rw [Ideal.matmul_constant_zero_apply]
  exact contr_sum wf l r p q

/-- Entry (p, q) of the host's `dot_general` of the same form, under any schedule key, is the same sum. -/
theorem dotGeneral_apply {m K n : ℕ} {φ₁ φ₂ : FTy}
    (wf : DotDims.WF (⟨2, ![m, K]⟩ : Shape) (⟨2, ![K, n]⟩ : Shape) (⟨2, ![m, n]⟩ : Shape) [1] [0] [0] [1] [] [])
    (prec : Option ContractPrecision) (sched : HostSchedule)
    (l : FVec Ideal (⟨2, ![m, K]⟩ : Shape) φ₁) (r : FVec Ideal (⟨2, ![K, n]⟩ : Shape) φ₂) (p : Fin m) (q : Fin n) :
    FloatOps.dotGeneral (plain wf) prec sched l r (ix2 p q) = ∑ k : Fin K, l (ix2 p k) * r (ix2 k q) := by
  rw [Ideal.dotGeneral_apply]
  exact contr_sum wf l r p q

end Cert.PlainMatmul

end
-- ==== Proof.BodyRows.lean ====
/-
  The kernel body on one row block, read row by row.

  The body holds a block of 512 rows of x, v, f and the two factors staged transposed (Uᵀ as 1024 × 256, Wᵀ as
  256 × 1024).  Its Γ is two plain matrix products into zero accumulators, h = v · Uᵀ  then  (h ∘ h) · Wᵀ, the operands
  passing through a narrower float format on the way in — at the ideal values a change of format is the identity.  Entry
  (p, q) of a plain product is  Σ_k l(p, k) · r(k, q),  so entry (p, q) of the body's Γ is  Γ(row p of v)_q  for the
  matrices  U_{r,k} = Uᵀ(k, r),  W_{q,r} = Wᵀ(r, q):  only row p of the block enters.  The rest of the body is entrywise,
  hence each of its three kicks, read at (p, q), is the row's kick at q, and the position it stores is the row's position.
-/
import proofs.«144431_j23210003268311_2_alg».proof.Proof.Gen.KernelIdeal.Skeleton
import proofs.«144431_j23210003268311_2_alg».proof.Proof.StepSpec
import proofs.«144431_j23210003268311_2_alg».proof.Proof.LibPlainMatmul
import Idealize.ShloMosaic.Lib.Pipeline.Value

noncomputable section

namespace Cert.KernelIdeal.BodyRows

open Cert.KernelIdeal Cert.KernelIdeal.Gen Idealize.ShloMosaic Idealize.ShloMosaic.ValueIdx Cert.Yoshida

/-- U as the staged Uᵀ holds it: U_{r,k} = Uᵀ(k, r). -/
abbrev matUT (ut : FVec Ideal S1024x256 .bf16) : Fin 256 → Fin 1024 → EReal := fun r k => ut (ix2 k r)

/-- W as the staged Wᵀ holds it: W_{q,r} = Wᵀ(r, q). -/
abbrev matWT (wt : FVec Ideal S256x1024 .bf16) : Fin 1024 → Fin 256 → EReal := fun q r => wt (ix2 r q)

/-- The body's projection h = v · Uᵀ of a row block. -/
def projBlk (tv : FVec Ideal S512x1024 .f32) (ut : FVec Ideal S1024x256 .bf16) : FVec Ideal S512x256 .f32 :=
  matmul dot_S512x1024_S1024x256_S512x256_1_0_0_1_n_n none (truncf .bf16 tv bitsLt_bf16_f32)
    (shapeCast S1024x256 ut shapeCasts_S1024x256_S1024x256) (constant S512x256 .f32 0x00000000#32)

/-- The body's Γ of a row block: (h ∘ h) · Wᵀ. -/
def gammaBlk (tv : FVec Ideal S512x1024 .f32) (ut : FVec Ideal S1024x256 .bf16) (wt : FVec Ideal S256x1024 .bf16) :
    FVec Ideal S512x1024 .f32 :=
  matmul dot_S512x256_S256x1024_S512x1024_1_0_0_1_n_n none
    (truncf .bf16 (mulf (projBlk tv ut) (projBlk tv ut)) bitsLt_bf16_f32)
    (shapeCast S256x1024 wt shapeCasts_S256x1024_S256x1024) (constant S512x1024 .f32 0x00000000#32)

/-- The body's kick of a row block, the step an f32 word. -/
def kickBlk (a : BitVec 32) (tv f : FVec Ideal S512x1024 .f32) (ut : FVec Ideal S1024x256 .bf16)
    (wt : FVec Ideal S256x1024 .bf16) : FVec Ideal S512x1024 .f32 :=
  addf tv (mulf (broadcast S512x1024 (Scalar.ofBits .f32 a)) (subf f (gammaBlk tv ut wt)))

/-- Entry (p, r) of the projection is row p's projection onto direction r. -/
theorem projBlk_apply (tv : FVec Ideal S512x1024 .f32) (ut : FVec Ideal S1024x256 .bf16) (p : Fin 512) (r : Fin 256) :
    projBlk tv ut (ix2 p r) = proj (matUT ut) (rowOf tv p) r := by
  unfold projBlk
  rw [shapeCast_self]
  exact Cert.PlainMatmul.matmul_zero_apply dot_S512x1024_S1024x256_S512x256_1_0_0_1_n_n_wf none _ _ p r

/-- Entry (p, q) of the body's Γ is Γ of row p at q. -/
theorem gammaBlk_apply (tv : FVec Ideal S512x1024 .f32) (ut : FVec Ideal S1024x256 .bf16) (wt : FVec Ideal S256x1024 .bf16)
    (p : Fin 512) (q : Fin 1024) :
    gammaBlk tv ut wt (ix2 p q) = gamma (matUT ut) (matWT wt) (rowOf tv p) q := by
  unfold gammaBlk
  rw [shapeCast_self]
  refine (Cert.PlainMatmul.matmul_zero_apply dot_S512x256_S256x1024_S512x1024_1_0_0_1_n_n_wf none _ _ p q).trans ?_
  unfold gamma
  refine Finset.sum_congr rfl fun r _ => ?_
  show (projBlk tv ut (ix2 p r) * projBlk tv ut (ix2 p r)) * wt (ix2 r q) = _
  rw [projBlk_apply]

/-- Entry (p, q) of the body's kick is row p's kick at q. -/
theorem kickBlk_apply (a : BitVec 32) (tv f : FVec Ideal S512x1024 .f32) (ut : FVec Ideal S1024x256 .bf16)
    (wt : FVec Ideal S256x1024 .bf16) (p : Fin 512) (q : Fin 1024) :
    kickBlk a tv f ut wt (ix2 p q) = kick (Ideal.ofBits .f32 a) (matUT ut) (matWT wt) (rowOf f p) (rowOf tv p) q := by
  unfold kickBlk kick
  show tv (ix2 p q) + Ideal.ofBits .f32 a * (f (ix2 p q) - gammaBlk tv ut wt (ix2 p q)) = _
  rw [gammaBlk_apply]

/-! ## The body's named values -/

section
variable (x v f : FVec Ideal S512x1024 .f32) (ut : FVec Ideal S1024x256 .bf16) (wt : FVec Ideal S256x1024 .bf16)

/-- The three velocities the body computes are kicks of the block, each from the one before. -/
theorem pay_vel1 : k0_pay3 (F := Ideal) v f ut wt = kickBlk 0x3C5D61BD#32 v f ut wt := rfl
theorem pay_vel2 : k0_pay5 (F := Ideal) v f ut wt ut wt = kickBlk 0xBC8B7638#32 (k0_pay3 v f ut wt) f ut wt := rfl
theorem pay_vel3 (w : FVec Ideal S512x1024 .f32) : k0_pay1 (F := Ideal) f w ut wt = kickBlk 0x3C5D61BD#32 w f ut wt := rfl

variable (p : Fin 512) (q : Fin 1024)

/-- Entry (p, q) of the first velocity is row p's first velocity at q. -/
theorem vel1_blk : k0_pay3 (F := Ideal) v f ut wt (ix2 p q) = vel1 (matUT ut) (matWT wt) (rowOf f p) (rowOf v p) q := by
  rw [pay_vel1]
  exact kickBlk_apply _ v f ut wt p q

/-- Entry (p, q) of the second velocity is row p's second velocity at q: the kick reads row p of the first. -/
theorem vel2_blk : k0_pay5 (F := Ideal) v f ut wt ut wt (ix2 p q) = vel2 (matUT ut) (matWT wt) (rowOf f p) (rowOf v p) q := by
  have e : rowOf (k0_pay3 (F := Ideal) v f ut wt) p = vel1 (matUT ut) (matWT wt) (rowOf f p) (rowOf v p) :=
    funext fun k => vel1_blk v f ut wt p k
  rw [pay_vel2, kickBlk_apply, e]
  rfl

/-- Entry (p, q) of the third velocity, the one the body stores, is row p's third velocity at q. -/
theorem vel3_blk :
    k0_pay1 (F := Ideal) f (k0_pay5 v f ut wt ut wt) ut wt (ix2 p q) = vel3 (matUT ut) (matWT wt) (rowOf f p) (rowOf v p) q := by
  have e : rowOf (k0_pay5 (F := Ideal) v f ut wt ut wt) p = vel2 (matUT ut) (matWT wt) (rowOf f p) (rowOf v p) :=
    funext fun k => vel2_blk v f ut wt p k
  rw [pay_vel3, kickBlk_apply, e]
  rfl

/-- Entry (p, q) of the position the body stores is row p's final position at q: the four drifts are entrywise. -/
theorem pos_blk :
    k0_pay2 (F := Ideal) f (k0_pay4 v f ut wt x) (k0_pay5 v f ut wt ut wt) (k0_pay6 (F := Ideal)) ut wt (ix2 p q)
      = pos (matUT ut) (matWT wt) (rowOf f p) (rowOf v p) (rowOf x p) q := by
  show x (ix2 p q) + Ideal.ofBits .f32 0x3BDD61BD#32 * v (ix2 p q)
        + Ideal.ofBits .f32 0xBAE62ACA#32 * k0_pay3 (F := Ideal) v f ut wt (ix2 p q)
        + Ideal.ofBits .f32 0xBAE62ACA#32 * k0_pay5 (F := Ideal) v f ut wt ut wt (ix2 p q)
        + Ideal.ofBits .f32 0x3BDD61BD#32 * k0_pay1 (F := Ideal) f (k0_pay5 v f ut wt ut wt) ut wt (ix2 p q) = _
  rw [vel1_blk, vel2_blk, vel3_blk]
  rfl

end

end Cert.KernelIdeal.BodyRows

end
-- ==== Proof.RowBlocks.lean ====
/-
  The kernel's two results as whole arrays: the batch stepped row by row.

  The grid has eight points; point t holds rows 512·t … 512·t + 511 of x, v, f (block index (t, 0) of blocks of 512 × 1024)
  and, at every point, the whole of the two factors, which the program transposes before the launch: the region finds
  Uᵀ and Wᵀ, so entry (k, r) of the first staged factor is U(r, k) and entry (r, q) of the second is W(q, r).  Row p of a
  block is therefore row 512·t + p of its array, and what the body leaves at (p, q) — a function of row p of the blocks and of
  the factors only — is the final velocity, or position, of row 512·t + p at q.  So point t writes back block t of ONE
  whole-array function; row b lies in the block of point b / 512, the eight blocks fill the array, and each output array
  ends holding that function.
-/
import proofs.«144431_j23210003268311_2_alg».proof.Proof.Gen.KernelIdeal.Value
import proofs.«144431_j23210003268311_2_alg».proof.Proof.BodyRows
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Batch

open Cert.KernelIdeal Cert.KernelIdeal.Gen Cert.KernelIdeal.Value Cert.KernelIdeal.BodyRows Idealize.ShloMosaic.ValueIdx Cert.Yoshida

variable (m : (ℓ : Loc nD τ sig) → Buf (Elt Ideal) ℓ) (ρ : Dev nD → PrngReg)

/-- The zero offsets, however spelt. -/
theorem hz : (![0, 0] : Fin 2 → Nat) = fun _ => 0 := funext fun a => by fin_cases a <;> rfl

/-- The printed index maps, decided over the eight points: the three row-blocked inputs and the two outputs sit at block
    (t, 0), the two factors at block (0, 0). -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

/-- Row p of block t is a row of the batch. -/
theorem rowIn (t : Fin cfg0.N) (p : Fin 512) : 512 * t.val + p.val < 4096 := by
  have hN : cfg0.N = 8 := N_0
  have := t.isLt; have := p.isLt; omega

/-! ## The windows' blocks as rows of the arrays -/

section Blocks
variable (c : Dev nD) (t : Fin cfg0.N)

/-- Row p of point t's block of x is row 512·t + p of x. -/
theorem iblk_x (p : Fin 512) (k : Fin 1024) :
    (iblk m c 0 t : FVec Ideal S512x1024 .f32) (ix2 p k)
      = (m ((c : Thread nD τ).loc main_arg0) : S4096x1024.Idx → EReal) (ix2 ⟨512 * t.val + p.val, rowIn t p⟩ k) := by
  obtain ⟨⟨e0, e1⟩, -⟩ := idx_rows t
  unfold iblk
  rw [View.read_apply]
  show V m c main_arg0 _ = _
  rw [V_main_arg0]
  refine congrArg _ (funext fun a => Fin.ext ?_)
  match a with
  | ⟨0, _⟩ => show win0_0.index t (0 : Fin 2) * 512 + 1 * p.val = 512 * t.val + p.val; rw [e0]; omega
  | ⟨1, _⟩ => show win0_0.index t (1 : Fin 2) * 1024 + 1 * k.val = k.val; rw [e1]; omega

/-- Row p of point t's block of v is row 512·t + p of v. -/
theorem iblk_v (p : Fin 512) (k : Fin 1024) :
    (iblk m c 1 t : FVec Ideal S512x1024 .f32) (ix2 p k)
      = (m ((c : Thread nD τ).loc main_arg1) : S4096x1024.Idx → EReal) (ix2 ⟨512 * t.val + p.val, rowIn t p⟩ k) := by
  obtain ⟨-, ⟨e0, e1⟩, -⟩ := idx_rows t
  unfold iblk
  rw [View.read_apply]
  show V m c main_arg1 _ = _
  rw [V_main_arg1]
  refine congrArg _ (funext fun a => Fin.ext ?_)
  match a with
  | ⟨0, _⟩ => show win0_1.index t (0 : Fin 2) * 512 + 1 * p.val = 512 * t.val + p.val; rw [e0]; omega
  | ⟨1, _⟩ => show win0_1.index t (1 : Fin 2) * 1024 + 1 * k.val = k.val; rw [e1]; omega

/-- Row p of point t's block of f is row 512·t + p of f. -/
theorem iblk_f (p : Fin 512) (k : Fin 1024) :
    (iblk m c 2 t : FVec Ideal S512x1024 .f32) (ix2 p k)
      = (m ((c : Thread nD τ).loc main_arg2) : S4096x1024.Idx → EReal) (ix2 ⟨512 * t.val + p.val, rowIn t p⟩ k) := by
  obtain ⟨-, -, ⟨e0, e1⟩, -⟩ := idx_rows t
  unfold iblk
  rw [View.read_apply]
  show V m c main_arg2 _ = _
  rw [V_main_arg2]
  refine congrArg _ (funext fun a => Fin.ext ?_)
  match a with
  | ⟨0, _⟩ => show win0_2.index t (0 : Fin 2) * 512 + 1 * p.val = 512 * t.val + p.val; rw [e0]; omega
  | ⟨1, _⟩ => show win0_2.index t (1 : Fin 2) * 1024 + 1 * k.val = k.val; rw [e1]; omega

end Blocks

/-! ## The two factors as the region finds them -/

/-- The first staged factor is U transposed (its change of format the identity). -/
theorem V_ut (c : Dev nD) : @Eq (S1024x256.Idx → EReal) (V m c main_v1)
    (truncf (F := Ideal) .bf16 (transpose S1024x256 [1, 0] (m ((c : Thread nD τ).loc main_arg3) : FVec Ideal S256x1024 .f32) transposes_S256x1024_S1024x256_1_0) bitsLt_bf16_f32) := by
  dsimp only [Gen.V, Gen.hostOps0]
  after_results

/-- The second staged factor is W transposed. -/
theorem V_wt (c : Dev nD) : @Eq (S256x1024.Idx → EReal) (V m c main_v3)
    (truncf (F := Ideal) .bf16 (transpose S256x1024 [1, 0] (m ((c : Thread nD τ).loc main_arg4) : FVec Ideal S1024x256 .f32) transposes_S1024x256_S256x1024_1_0) bitsLt_bf16_f32) := by
  dsimp only [Gen.V, Gen.hostOps0]
  after_results

theorem V_ut_apply (c : Dev nD) (k : Fin 1024) (r : Fin 256) :
    (V m c main_v1 : S1024x256.Idx → EReal) (ix2 k r) = (m ((c : Thread nD τ).loc main_arg3) : S256x1024.Idx → EReal) (ix2 r k) := by
  rw [V_ut]
  show transpose S1024x256 [1, 0] (m ((c : Thread nD τ).loc main_arg3) : FVec Ideal S256x1024 .f32) transposes_S256x1024_S1024x256_1_0 (ix2 k r) = _
  refine transpose_apply _ _ _ (ix2 k r) (ix2 r k) fun b => ?_
  match b with
  | ⟨0, _⟩ => rfl
  | ⟨1, _⟩ => rfl

theorem V_wt_apply (c : Dev nD) (r : Fin 256) (q : Fin 1024) :
    (V m c main_v3 : S256x1024.Idx → EReal) (ix2 r q) = (m ((c : Thread nD τ).loc main_arg4) : S1024x256.Idx → EReal) (ix2 q r) := by
  rw [V_wt]
  show transpose S256x1024 [1, 0] (m ((c : Thread nD τ).loc main_arg4) : FVec Ideal S1024x256 .f32) transposes_S1024x256_S256x1024_1_0 (ix2 r q) = _
  refine transpose_apply _ _ _ (ix2 r q) (ix2 q r) fun b => ?_
  match b with
  | ⟨0, _⟩ => rfl
  | ⟨1, _⟩ => rfl

section Factors
variable (c : Dev nD) (t : Fin cfg0.N)

/-- Every point stages the whole first factor: entry (k, r) of its block is U(r, k). -/
theorem iblk_ut (k : Fin 1024) (r : Fin 256) :
    (iblk m c 3 t : FVec Ideal S1024x256 .bf16) (ix2 k r) = (m ((c : Thread nD τ).loc main_arg3) : S256x1024.Idx → EReal) (ix2 r k) := by
  obtain ⟨-, -, -, ⟨e0, e1⟩, -⟩ := idx_rows t
  unfold iblk
  rw [View.read_apply]
  show V m c main_v1 _ = _
  refine Eq.trans (congrArg _ (funext fun a => Fin.ext ?_)) (V_ut_apply m c k r)
  match a with
  | ⟨0, _⟩ => show win0_3.index t (0 : Fin 2) * 1024 + 1 * k.val = k.val; rw [e0]; omega
  | ⟨1, _⟩ => show win0_3.index t (1 : Fin 2) * 256 + 1 * r.val = r.val; rw [e1]; omega

/-- Every point stages the whole second factor: entry (r, q) of its block is W(q, r). -/
theorem iblk_wt (r : Fin 256) (q : Fin 1024) :
    (iblk m c 4 t : FVec Ideal S256x1024 .bf16) (ix2 r q) = (m ((c : Thread nD τ).loc main_arg4) : S1024x256.Idx → EReal) (ix2 q r) := by
  obtain ⟨-, -, -, -, ⟨e0, e1⟩, -⟩ := idx_rows t
  unfold iblk
  rw [View.read_apply]
  show V m c main_v3 _ = _
  refine Eq.trans (congrArg _ (funext fun a => Fin.ext ?_)) (V_wt_apply m c r q)
  match a with
  | ⟨0, _⟩ => show win0_4.index t (0 : Fin 2) * 256 + 1 * r.val = r.val; rw [e0]; omega
  | ⟨1, _⟩ => show win0_4.index t (1 : Fin 2) * 1024 + 1 * q.val = q.val; rw [e1]; omega

end Factors

/-! ## What one grid point writes back -/

section Point
variable (c : Dev nD) (t : Fin cfg0.N)

theorem rows_x (p : Fin 512) : rowOf (iblk m c 0 t : FVec Ideal S512x1024 .f32) p
    = rowOf (m ((c : Thread nD τ).loc main_arg0) : S4096x1024.Idx → EReal) ⟨512 * t.val + p.val, rowIn t p⟩ :=
  funext fun k => iblk_x m c t p k

theorem rows_v (p : Fin 512) : rowOf (iblk m c 1 t : FVec Ideal S512x1024 .f32) p
    = rowOf (m ((c : Thread nD τ).loc main_arg1) : S4096x1024.Idx → EReal) ⟨512 * t.val + p.val, rowIn t p⟩ :=
  funext fun k => iblk_v m c t p k

theorem rows_f (p : Fin 512) : rowOf (iblk m c 2 t : FVec Ideal S512x1024 .f32) p
    = rowOf (m ((c : Thread nD τ).loc main_arg2) : S4096x1024.Idx → EReal) ⟨512 * t.val + p.val, rowIn t p⟩ :=
  funext fun k => iblk_f m c t p k

theorem mat_ut : matUT (iblk m c 3 t : FVec Ideal S1024x256 .bf16)
    = matU (m ((c : Thread nD τ).loc main_arg3) : S256x1024.Idx → EReal) :=
  funext fun r => funext fun k => iblk_ut m c t k r

theorem mat_wt : matWT (iblk m c 4 t : FVec Ideal S256x1024 .bf16)
    = matW (m ((c : Thread nD τ).loc main_arg4) : S1024x256.Idx → EReal) :=
  funext fun q => funext fun r => iblk_wt m c t r q

/-- Entry (p, q) of what the body leaves for the velocity output at point t is the final velocity of row 512·t + p at q. -/
theorem out_vel (p : Fin 512) (q : Fin 1024) :
    out0_6 (iblk m c 0 t) (iblk m c 1 t) (iblk m c 2 t) (iblk m c 3 t) (iblk m c 4 t) (ix2 p q)
      = velOut (m ((c : Thread nD τ).loc main_arg3)) (m ((c : Thread nD τ).loc main_arg4))
          (m ((c : Thread nD τ).loc main_arg1)) (m ((c : Thread nD τ).loc main_arg2)) (ix2 ⟨512 * t.val + p.val, rowIn t p⟩ q) := by
  unfold out0_6
  rw [View.canon_unit_zero hz]
  simp only [View.ld_unit_zero (S := S512x1024) hz, View.ld_unit_zero (S := S1024x256) hz, View.ld_unit_zero (S := S256x1024) hz]
  refine (vel3_blk (iblk m c 1 t) (iblk m c 2 t) (iblk m c 3 t) (iblk m c 4 t) p q).trans ?_
  rw [rows_v, rows_f, mat_ut, mat_wt]
  rfl

/-- Entry (p, q) of what the body leaves for the position output at point t is the final position of row 512·t + p at q. -/
theorem out_pos (p : Fin 512) (q : Fin 1024) :
    out0_5 (iblk m c 0 t) (iblk m c 1 t) (iblk m c 2 t) (iblk m c 3 t) (iblk m c 4 t) (ix2 p q)
      = posOut (m ((c : Thread nD τ).loc main_arg3)) (m ((c : Thread nD τ).loc main_arg4))
          (m ((c : Thread nD τ).loc main_arg0)) (m ((c : Thread nD τ).loc main_arg1)) (m ((c : Thread nD τ).loc main_arg2)) (ix2 ⟨512 * t.val + p.val, rowIn t p⟩ q) := by
  unfold out0_5
  rw [View.canon_unit_zero hz]
  simp only [View.ld_unit_zero (S := S512x1024) hz, View.ld_unit_zero (S := S1024x256) hz, View.ld_unit_zero (S := S256x1024) hz]
  refine (pos_blk (iblk m c 0 t) (iblk m c 1 t) (iblk m c 2 t) (iblk m c 3 t) (iblk m c 4 t) p q).trans ?_
  rw [rows_x, rows_v, rows_f, mat_ut, mat_wt]
  rfl

/-- Point t writes back block t of the batch's final velocities. -/
theorem flushed_vel : (dats m 0 c).flushed 6 t = ((cfg0.win 6).blk t).view.read (Elt Ideal)
      (velOut (m ((c : Thread nD τ).loc main_arg3)) (m ((c : Thread nD τ).loc main_arg4))
          (m ((c : Thread nD τ).loc main_arg1)) (m ((c : Thread nD τ).loc main_arg2))) := by
  obtain ⟨-, -, -, -, -, -, ⟨e0, e1⟩⟩ := idx_rows t
  rw [Value.flushed6]
  funext y
  obtain ⟨p, q, rfl⟩ : ∃ (p : Fin 512) (q : Fin 1024), y = ix2 p q := ⟨y 0, y 1, eq_ix2 y⟩
  rw [View.read_apply]
  show out0_6 (iblk m c 0 t) (iblk m c 1 t) (iblk m c 2 t) (iblk m c 3 t) (iblk m c 4 t) (ix2 p q) = _
  rw [out_vel]
  refine congrArg _ (funext fun a => Fin.ext ?_)
  match a with
  | ⟨0, _⟩ => show 512 * t.val + p.val = win0_6.index t (0 : Fin 2) * 512 + 1 * p.val; rw [e0]; omega
  | ⟨1, _⟩ => show q.val = win0_6.index t (1 : Fin 2) * 1024 + 1 * q.val; rw [e1]; omega

/-- Point t writes back block t of the batch's final positions. -/
theorem flushed_pos : (dats m 0 c).flushed 5 t = ((cfg0.win 5).blk t).view.read (Elt Ideal)
      (posOut (m ((c : Thread nD τ).loc main_arg3)) (m ((c : Thread nD τ).loc main_arg4))
          (m ((c : Thread nD τ).loc main_arg0)) (m ((c : Thread nD τ).loc main_arg1)) (m ((c : Thread nD τ).loc main_arg2))) := by
  obtain ⟨-, -, -, -, -, ⟨e0, e1⟩, -⟩ := idx_rows t
  rw [Value.flushed5]
  funext y
  obtain ⟨p, q, rfl⟩ : ∃ (p : Fin 512) (q : Fin 1024), y = ix2 p q := ⟨y 0, y 1, eq_ix2 y⟩
  rw [View.read_apply]
  show out0_5 (iblk m c 0 t) (iblk m c 1 t) (iblk m c 2 t) (iblk m c 3 t) (iblk m c 4 t) (ix2 p q) = _
  rw [out_pos]
  refine congrArg _ (funext fun a => Fin.ext ?_)
  match a with
  | ⟨0, _⟩ => show 512 * t.val + p.val = win0_5.index t (0 : Fin 2) * 512 + 1 * p.val; rw [e0]; omega
  | ⟨1, _⟩ => show q.val = win0_5.index t (1 : Fin 2) * 1024 + 1 * q.val; rw [e1]; omega

end Point

/-! ## The eight row blocks fill the arrays -/

/-- An index of the batch lies in point t's block of the position output iff each coordinate is in the block's range. -/
theorem mem_blk_pos (t : Fin cfg0.N) (i : S4096x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4_0).slice (win0_5.rect t)).set ↔ _
  rw [View.set_slice_whole, Rect.mem_set_unit]
  exact Iff.rfl

/-- The same for the velocity output. -/
theorem mem_blk_vel (t : Fin cfg0.N) (i : S4096x1024.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v4_1).slice (win0_6.rect t)).set ↔ _
  rw [View.set_slice_whole, Rect.mem_set_unit]
  exact Iff.rfl

/-- Row b of the batch is in the block of point b / 512. -/
theorem point_of_row (i : S4096x1024.Idx) : ∃ t : Fin cfg0.N, t.val = (i 0).val / 512 := by
  have hN : cfg0.N = 8 := N_0
  have hi0 : (i 0).val < 4096 := (i 0).isLt
  exact ⟨⟨(i 0).val / 512, by rw [hN]; omega⟩, rfl⟩

theorem cover_pos (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  obtain ⟨t, ht⟩ := point_of_row i
  obtain ⟨-, -, -, -, -, ⟨e0, e1⟩, -⟩ := idx_rows t
  refine ⟨t, flush0_5 t, ?_⟩
  rw [mem_blk_pos]
  intro a
  match a with
  | ⟨0, _⟩ => show win0_5.index t (0 : Fin 2) * 512 ≤ (i 0).val ∧ (i 0).val < win0_5.index t (0 : Fin 2) * 512 + 512; rw [e0]; omega
  | ⟨1, _⟩ => show win0_5.index t (1 : Fin 2) * 1024 ≤ (i 1).val ∧ (i 1).val < win0_5.index t (1 : Fin 2) * 1024 + 1024; rw [e1]; omega

theorem cover_vel (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  obtain ⟨t, ht⟩ := point_of_row i
  obtain ⟨-, -, -, -, -, -, ⟨e0, e1⟩⟩ := idx_rows t
  refine ⟨t, flush0_6 t, ?_⟩
  rw [mem_blk_vel]
  intro a
  match a with
  | ⟨0, _⟩ => show win0_6.index t (0 : Fin 2) * 512 ≤ (i 0).val ∧ (i 0).val < win0_6.index t (0 : Fin 2) * 512 + 512; rw [e0]; omega
  | ⟨1, _⟩ => show win0_6.index t (1 : Fin 2) * 1024 ≤ (i 1).val ∧ (i 1).val < win0_6.index t (1 : Fin 2) * 1024 + 1024; rw [e1]; omega

/-! ## The arrays after the run -/

/-- The position output ends holding the batch's final positions. -/
theorem final_pos (c : Dev nD) : (dats m 0 c).arrAt 5 cfg0.N
    = posOut (m ((c : Thread nD τ).loc main_arg3)) (m ((c : Thread nD τ).loc main_arg4))
        (m ((c : Thread nD τ).loc main_arg0)) (m ((c : Thread nD τ).loc main_arg1)) (m ((c : Thread nD τ).loc main_arg2)) :=
  (dats m 0 c).arrAt_eq_of_cover 5 _ (fun t _ => flushed_pos m c t) cover_pos

/-- The velocity output ends holding the batch's final velocities. -/
theorem final_vel (c : Dev nD) : (dats m 0 c).arrAt 6 cfg0.N
    = velOut (m ((c : Thread nD τ).loc main_arg3)) (m ((c : Thread nD τ).loc main_arg4))
        (m ((c : Thread nD τ).loc main_arg1)) (m ((c : Thread nD τ).loc main_arg2)) :=
  (dats m 0 c).arrAt_eq_of_cover 6 _ (fun t _ => flushed_vel m c t) cover_vel

/-- The kernel's run: its two results are the batch stepped row by row, its arguments unchanged. -/
theorem run : θ_run defs (onTc (τ := τ) (main (F := Ideal))) ⟨m, fun _ => 0, ρ⟩ fun r => ∀ c : Dev nD,
      r.2.mem ((c : Thread nD τ).loc main_v4_0)
        = posOut (m ((c : Thread nD τ).loc main_arg3)) (m ((c : Thread nD τ).loc main_arg4))
            (m ((c : Thread nD τ).loc main_arg0)) (m ((c : Thread nD τ).loc main_arg1)) (m ((c : Thread nD τ).loc main_arg2))
      ∧ r.2.mem ((c : Thread nD τ).loc main_v4_1)
        = velOut (m ((c : Thread nD τ).loc main_arg3)) (m ((c : Thread nD τ).loc main_arg4))
            (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_pos m c), (h c).2.1.trans (final_vel m c), (h c).2.2⟩)
    (Value.run_blocks m ρ)

end Cert.KernelIdeal.Batch

end
-- ==== Proof.RefRows.lean ====
/-
  The reference program read row by row.

  The reference steps the whole 4096 × 1024 batch at once.  Its Γ of a velocity array is two products contracting the
  second axes,  h(b, r) = Σ_k v(b, k) · U(r, k)  and  Σ_r (h ∘ h)(b, r) · W(q, r):  at (b, q) this is Γ(row b of v)_q, so
  only row b enters.  Its force is written (−Γ) + f, which is f − Γ; with that each of its three kicks, read at (b, q), is
  row b's kick at q, and its position is row b's position: the results are the batch stepped row by row.
-/
import proofs.«144431_j23210003268311_2_alg».proof.Proof.Gen.ReferenceIdeal.Read
import proofs.«144431_j23210003268311_2_alg».proof.Proof.StepSpec

noncomputable section

namespace Cert.ReferenceIdeal.RefRows

open Cert.ReferenceIdeal Cert.ReferenceIdeal.Gen Cert.ReferenceIdeal.Read Idealize.ShloMosaic Idealize.ShloMosaic.ValueIdx
open Cert.Yoshida

variable (xa va fa : FVec Ideal S4096x1024 .f32) (Ua : FVec Ideal S256x1024 .f32) (Wa : FVec Ideal S1024x256 .f32)

/-- Entry (b, r) of the reference's projection of ANY velocity array is row b's projection onto direction r. -/
theorem proj_ref (tv : FVec Ideal S4096x1024 .f32) (b : Fin 4096) (r : Fin 256) :
    val_main_v3 (F := Ideal) tv Ua (ix2 b r) = proj (matU Ua) (rowOf tv b) r := by
  rw [val_main_v3_apply]
  unfold proj
  refine Finset.sum_congr rfl fun k _ => ?_
  have el : lidx_main_v3 (ix2 b r) k = ix2 b k :=
    funext fun a => Fin.ext (by match a with | ⟨0, _⟩ => rfl | ⟨1, _⟩ => rfl)
  have er : ridx_main_v3 (ix2 b r) k = ix2 r k :=
    funext fun a => Fin.ext (by match a with | ⟨0, _⟩ => rfl | ⟨1, _⟩ => rfl)
  rw [el, er]

/-- Entry (b, q) of the reference's Γ of ANY velocity array is Γ of row b at q. -/
theorem gamma_ref (tv : FVec Ideal S4096x1024 .f32) (b : Fin 4096) (q : Fin 1024) :
    val_main_v5 (F := Ideal) tv Ua Wa (ix2 b q) = gamma (matU Ua) (matW Wa) (rowOf tv b) q := by
  rw [val_main_v5_apply]
  unfold gamma
  refine Finset.sum_congr rfl fun r _ => ?_
  have el : lidx_main_v5 (ix2 b q) r = ix2 b r :=
    funext fun a => Fin.ext (by match a with | ⟨0, _⟩ => rfl | ⟨1, _⟩ => rfl)
  have er : ridx_main_v5 (ix2 b q) r = ix2 q r :=
    funext fun a => Fin.ext (by match a with | ⟨0, _⟩ => rfl | ⟨1, _⟩ => rfl)
  rw [el, er]
  show (val_main_v3 (F := Ideal) tv Ua (ix2 b r) * val_main_v3 (F := Ideal) tv Ua (ix2 b r)) * Wa (ix2 q r) = _
  rw [proj_ref]

/-- The reference's kick of a velocity array, the step an f32 word, the force written (−Γ) + f. -/
def kickRef (a : BitVec 32) (tv : FVec Ideal S4096x1024 .f32) : FVec Ideal S4096x1024 .f32 :=
  addf tv (mulf (broadcastInDim S4096x1024 ![] bcast_S_S4096x1024 (constant (F := Ideal) S_ .f32 a))
    (addf (Host.negf (val_main_v5 (F := Ideal) tv Ua Wa)) fa))

/-- Entry (b, q) of the reference's kick is row b's kick at q. -/
theorem kickRef_apply (a : BitVec 32) (tv : FVec Ideal S4096x1024 .f32) (b : Fin 4096) (q : Fin 1024) :
    kickRef fa Ua Wa a tv (ix2 b q) = kick (Ideal.ofBits .f32 a) (matU Ua) (matW Wa) (rowOf fa b) (rowOf tv b) q := by
  show tv (ix2 b q) + Ideal.ofBits .f32 a * (-(val_main_v5 (F := Ideal) tv Ua Wa (ix2 b q)) + fa (ix2 b q)) = _
  rw [gamma_ref]
  exact kick_neg_add (Ideal.ofBits .f32 a) (matU Ua) (matW Wa) (rowOf fa b) (rowOf tv b) q

/-- The reference's three velocities are kicks, each from the one before. -/
theorem stage_vel1 : val_main_v10 (F := Ideal) va fa Ua Wa = kickRef fa Ua Wa 0x3C5D61BD#32 va := rfl
theorem stage_vel2 : val_main_v21 (F := Ideal) va fa Ua Wa = kickRef fa Ua Wa 0xBC8B7638#32 (val_main_v10 (F := Ideal) va fa Ua Wa) := rfl
theorem stage_vel3 : val_main_v32 (F := Ideal) va fa Ua Wa = kickRef fa Ua Wa 0x3C5D61BD#32 (val_main_v21 (F := Ideal) va fa Ua Wa) := rfl

section
variable (b : Fin 4096) (q : Fin 1024)

theorem vel1_ref : val_main_v10 (F := Ideal) va fa Ua Wa (ix2 b q) = vel1 (matU Ua) (matW Wa) (rowOf fa b) (rowOf va b) q := by
  rw [stage_vel1]
  exact kickRef_apply fa Ua Wa _ va b q

theorem vel2_ref : val_main_v21 (F := Ideal) va fa Ua Wa (ix2 b q) = vel2 (matU Ua) (matW Wa) (rowOf fa b) (rowOf va b) q := by
  have e : rowOf (val_main_v10 (F := Ideal) va fa Ua Wa) b = vel1 (matU Ua) (matW Wa) (rowOf fa b) (rowOf va b) :=
    funext fun k => vel1_ref va fa Ua Wa b k
  rw [stage_vel2, kickRef_apply, e]
  rfl

theorem vel3_ref : val_main_v32 (F := Ideal) va fa Ua Wa (ix2 b q) = vel3 (matU Ua) (matW Wa) (rowOf fa b) (rowOf va b) q := by
  have e : rowOf (val_main_v21 (F := Ideal) va fa Ua Wa) b = vel2 (matU Ua) (matW Wa) (rowOf fa b) (rowOf va b) :=
    funext fun k => vel2_ref va fa Ua Wa b k
  rw [stage_vel3, kickRef_apply, e]
  rfl

theorem pos_ref : val_main_v35 (F := Ideal) xa va fa Ua Wa (ix2 b q)
    = pos (matU Ua) (matW Wa) (rowOf fa b) (rowOf va b) (rowOf xa b) q := by
  show xa (ix2 b q) + Ideal.ofBits .f32 0x3BDD61BD#32 * va (ix2 b q)
        + Ideal.ofBits .f32 0xBAE62ACA#32 * val_main_v10 (F := Ideal) va fa Ua Wa (ix2 b q)
        + Ideal.ofBits .f32 0xBAE62ACA#32 * val_main_v21 (F := Ideal) va fa Ua Wa (ix2 b q)
        + Ideal.ofBits .f32 0x3BDD61BD#32 * val_main_v32 (F := Ideal) va fa Ua Wa (ix2 b q) = _
  rw [vel1_ref, vel2_ref, vel3_ref]
  rfl

end

/-- The reference's second result is the batch's final velocities, every row stepped on its own. -/
theorem vel_result : val_main_v32 (F := Ideal) va fa Ua Wa = velOut Ua Wa va fa := by
  funext i
  obtain ⟨b, q, rfl⟩ : ∃ (b : Fin 4096) (q : Fin 1024), i = ix2 b q := ⟨i 0, i 1, eq_ix2 i⟩
  exact vel3_ref va fa Ua Wa b q

/-- The reference's first result is the batch's final positions. -/
theorem pos_result : val_main_v35 (F := Ideal) xa va fa Ua Wa = posOut Ua Wa xa va fa := by
  funext i
  obtain ⟨b, q, rfl⟩ : ∃ (b : Fin 4096) (q : Fin 1024), i = ix2 b q := ⟨i 0, i 1, eq_ix2 i⟩
  exact pos_ref xa va fa Ua Wa b q

end Cert.ReferenceIdeal.RefRows

end
-- ==== Proof.lean ====
/-
  A fused fourth-order symplectic step of 4096 particles in 1024 dimensions under the low-rank quadratic force
  f − Γ(v),  Γ(v)_q = Σ_r (Σ_k v_k · U_{r,k})² · W_{q,r},  against the same step written with whole-batch array operations.

  The kernel cuts the batch into eight blocks of 512 rows and steps each block on its own, with both factors transposed
  beforehand so that its two products are plain ones; the reference steps the whole batch with products contracting the
  second axes.  On the extended reals both compute, for every row, the same three kicks and four drifts of that row alone
  (StepSpec): the kernel's blocks are rows of the arrays and its products read the transposed factors back as U and W
  (BodyRows, RowBlocks); the reference's products are the same sums and its force (−Γ) + f is f − Γ (RefRows).  The
  step constants are the same four f32 words on both sides and are never evaluated; the kernel's changes of float format
  are the identity at the ideal values.  No finiteness of the inputs is used: the only laws are commutativity of addition
  and that subtraction adds the negative.

  The kernel's idealization rewrote nothing, so that conjunct is trivial; the three frames are the generated ones (the
  reference's is its run with the results dropped).
-/
import proofs.«144431_j23210003268311_2_alg».proof.Defs
import proofs.«144431_j23210003268311_2_alg».proof.Proof.Gen.Kernel
import proofs.«144431_j23210003268311_2_alg».proof.Proof.Gen.Kernel.Skeleton
import proofs.«144431_j23210003268311_2_alg».proof.Proof.Gen.Kernel.Launch
import proofs.«144431_j23210003268311_2_alg».proof.Proof.Gen.Kernel.Points
import proofs.«144431_j23210003268311_2_alg».proof.Proof.Gen.Kernel.Frame
import proofs.«144431_j23210003268311_2_alg».proof.Proof.Gen.KernelIdeal
import proofs.«144431_j23210003268311_2_alg».proof.Proof.Gen.KernelIdeal.Skeleton
import proofs.«144431_j23210003268311_2_alg».proof.Proof.Gen.KernelIdeal.Launch
import proofs.«144431_j23210003268311_2_alg».proof.Proof.Gen.KernelIdeal.Points
import proofs.«144431_j23210003268311_2_alg».proof.Proof.Gen.KernelIdeal.Frame
import proofs.«144431_j23210003268311_2_alg».proof.Proof.Gen.ReferenceIdeal
import proofs.«144431_j23210003268311_2_alg».proof.Proof.Gen.KernelIdeal.Value
import proofs.«144431_j23210003268311_2_alg».proof.Proof.Gen.ReferenceIdeal.Run
import proofs.«144431_j23210003268311_2_alg».proof.Proof.Gen.ReferenceIdeal.Read
import proofs.«144431_j23210003268311_2_alg».proof.Proof.Gen.Pre_finite_inputs
import proofs.«144431_j23210003268311_2_alg».proof.Proof.RowBlocks
import proofs.«144431_j23210003268311_2_alg».proof.Proof.RefRows
import Idealize.ShloMosaic.Adequacy
import Idealize.ShloMosaic.Init

noncomputable section

namespace Cert.Proof

open Idealize.ShloMosaic Idealize.ShloMosaic.TcCoe Idealize.SL.Sem Cert.Yoshida

/-- The word-level kernel runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Nothing was rewritten between the kernel and its idealization. -/
theorem preserves : Cert.preserves_Kernel_KernelIdeal := trivial

/-- From memories agreeing on the five arguments both programs end with the batch's final positions and final
    velocities, every row stepped on its own: the kernel block by block, the reference all at once. -/
theorem algebraic : Cert.algebraic_KernelIdeal_ReferenceIdeal := by
  intro m ρ m' ρ' _ hagree
  refine ⟨_, _, Cert.KernelIdeal.Batch.run m ρ, ?_⟩
  refine (θ_run Cert.ReferenceIdeal.defs _ _).mono (fun _ h c => ?_) (Cert.ReferenceIdeal.Value.run (F := Ideal) m' ρ')
  obtain ⟨a0, a1, a2, a3, a4⟩ := hagree c
  refine ⟨(h c).1.trans ?_, (h c).2.1.trans ?_, (h c).2.2⟩
  · rw [Cert.ReferenceIdeal.Read.val_main_v35_eq, Cert.ReferenceIdeal.RefRows.pos_result, a0, a1, a2, a3, a4]
  · rw [Cert.ReferenceIdeal.Read.val_main_v32_eq, Cert.ReferenceIdeal.RefRows.vel_result, a1, a2, a3, a4]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
